-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run with its result named.

  @main is nine segments: stretches of host operations and four regions.  Run from any memory, every weakly fair
  execution terminates without a fault, and at the end every buffer that outlives the regions holds what the fold
  through the segments says (`W9`): a host stretch rewrites the buffers its operations write, a region leaves each of
  its output arrays at what its grid points wrote back and everything else as it found it.  Here that final state is
  read at the result buffer as well as at the six argument buffers: the result holds the fold's contents at the
  result's reference, the arguments what they were launched with.
-/
import proofs.«160602_j33809982554815_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument buffers as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«160602_j33809982554815_1_alg».proof.Proof.LibPlainDot
import proofs.«160602_j33809982554815_1_alg».proof.Proof.LibBiasRow
import proofs.«160602_j33809982554815_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.Stages.lean ====
/-
  The graph convolution's stages, as functions of the argument arrays on the extended reals.

  From the edge list e : i32[2, 1600000] both programs build, by the same host operations in the same order, the source
  and target end of every edge with one self-loop per node appended (`srcOf`, `dstOf`: 1700000 entries), the in-degree
  of every node as a scattered sum of ones (`degOf`), its inverse square root where the degree is positive and the zero
  word elsewhere (`dinvOf`), and the weight of every edge, the product of that quantity at its two ends (`normOf`).  One
  aggregation step (`aggr128`, `aggr64`) gathers the rows of a node matrix at the edges' source ends (a negative index
  wrapped by the node count first, `wrapIdx`), scales each gathered row by its edge's weight, and scatter-adds the rows
  onto the zero matrix at the target ends.  The whole computation is two layers of product, aggregation and bias, with
  the floor at zero between them: `gcn`.  The products, the bias rows and the floor are the row-wise stages `mm`,
  `addRow`, `relu` on matrices of extended reals.
-/
import proofs.«160602_j33809982554815_1_alg».proof.Proof.Gen.KernelIdeal
import proofs.«160602_j33809982554815_1_alg».proof.Proof.LibRowStages

noncomputable section

namespace Cert.Stages

open Idealize.ShloMosaic Cert.KernelIdeal Cert.KernelIdeal.Facts₀ Cert.KernelIdeal.Facts Cert.LibRowStages

/-- The source end of every edge, then every node once (the self-loops). -/
def srcOf (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The target end of every edge, then every node once. -/
def dstOf (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A negative index counts from the end: the node count is added to it. -/
def wrapIdx (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- A list of indices as a one-column table of start indices. -/
def col (s : IVec S1700000 32) : IVec S1700000x1 32 := broadcastInDim S1700000x1 ![0] bcast_S1700000_S1700000x1_0 s

/-- The in-degree of every node, self-loop included: ones scatter-added at the target ends onto zeros. -/
def degOf (e : IVec S2x1600000 32) : FVec Ideal S100000 .f32 :=
  Host.scatterAdd scatter_S100000_S1700000x1_S1700000_n_0_0_1
    (broadcastInDim S100000 ![] bcast_S_S100000 (constant S_ .f32 0x00000000#32)) (col (dstOf e))
    (broadcastInDim S1700000 ![] bcast_S_S1700000 (constant S_ .f32 0x3F800000#32))

/-- The inverse square root of the degree where it is positive, the zero word elsewhere. -/
def dinvOf (e : IVec S2x1600000 32) : FVec Ideal S100000 .f32 :=
  select (cmpf .ogt (degOf e) (broadcastInDim S100000 ![] bcast_S_S100000 (constant S_ .f32 0x00000000#32)))
    (Host.rsqrt (degOf e)) (broadcastInDim S100000 ![] bcast_S_S100000 (id (constant S_ .f32 0x00000000#32)))

/-- The weight of every edge: the product of `dinvOf` at its source and at its target end. -/
def normOf (e : IVec S2x1600000 32) : FVec Ideal S1700000 .f32 :=
  mulf (Host.gather gather_S100000_S1700000x1_S1700000_n_0_n_n_0_1_1 (dinvOf e) (col (wrapIdx (srcOf e))))
    (Host.gather gather_S100000_S1700000x1_S1700000_n_0_n_n_0_1_1 (dinvOf e) (col (wrapIdx (dstOf e))))

/-- One aggregation of a [100000, 128] node matrix along the edges. -/
def aggr128 (h : FVec Ideal S100000x128 .f32) (e : IVec S2x1600000 32) : FVec Ideal S100000x128 .f32 :=
  Host.scatterAdd scatter_S100000x128_S1700000x1_S1700000x128_1_0_0_1
    (broadcastInDim S100000x128 ![] bcast_S_S100000x128 (constant S_ .f32 0x00000000#32)) (col (dstOf e))
    (mulf (Host.gather gather_S100000x128_S1700000x1_S1700000x128_1_0_n_n_0_1_1128 h (col (wrapIdx (srcOf e))))
      (broadcastInDim S1700000x128 ![0, 1] bcast_S1700000x1_S1700000x128_0_1
        (broadcastInDim S1700000x1 ![0] bcast_S1700000_S1700000x1_0 (normOf e))))

/-- One aggregation of a [100000, 64] node matrix along the edges. -/
def aggr64 (h : FVec Ideal S100000x64 .f32) (e : IVec S2x1600000 32) : FVec Ideal S100000x64 .f32 :=
  Host.scatterAdd scatter_S100000x64_S1700000x1_S1700000x64_1_0_0_1
    (broadcastInDim S100000x64 ![] bcast_S_S100000x64 (constant S_ .f32 0x00000000#32)) (col (dstOf e))
    (mulf (Host.gather gather_S100000x64_S1700000x1_S1700000x64_1_0_n_n_0_1_164 h (col (wrapIdx (srcOf e))))
      (broadcastInDim S1700000x64 ![0, 1] bcast_S1700000x1_S1700000x64_0_1
        (broadcastInDim S1700000x1 ![0] bcast_S1700000_S1700000x1_0 (normOf e))))

/-- The two layers: product, aggregation, bias row, floor at zero; product, aggregation, bias row. -/
def gcn (x : FVec Ideal S100000x128 .f32) (e : IVec S2x1600000 32) (w1 : FVec Ideal S128x128 .f32)
    (b1 : FVec Ideal S128 .f32) (w2 : FVec Ideal S128x64 .f32) (b2 : FVec Ideal S64 .f32) : FVec Ideal S100000x64 .f32 :=
  addRow (aggr64 (mm (relu (addRow (aggr128 (mm x w1) e) (shapeCast S1x128 b1 shapeCasts_S128_S1x128))) w2) e)
    (shapeCast S1x64 b2 shapeCasts_S64_S1x64)

end Cert.Stages

end
-- ==== Proof.LibRowBlocks.lean ====
/-
  Row-wise stages on a block of rows, entry by entry.

  The matrix product, the bias row added to every row and the floor at zero (`mm`, `addRow`, `relu` on matrices of
  extended reals) each compute an entry of their result from one row of the matrix operand.  So an entry of a stage
  applied to a block of rows is the entry of the stage applied to the whole matrix, at the row of the whole matrix the
  block's row is: for the product when the two rows agree entry by entry and the weight columns agree, for the bias row
  when the two matrix entries agree and the two bias entries of that column agree, for the floor when the entries agree.
  Nothing is distributed or cancelled, so these hold at the infinities.  They are what a kernel that walks a matrix in
  blocks of rows needs at a grid point: the block's entry on the left, the whole array's on the right.
-/
import proofs.«160602_j33809982554815_1_alg».proof.Proof.LibRowStages

noncomputable section

open scoped BigOperators

namespace Cert.LibRowBlocks

open Idealize.ShloMosaic Idealize.ShloMosaic.ValueIdx Cert.LibRowStages

/-- Two index pairs with equal coordinates are equal. -/
theorem ix2_congr {a b : ℕ} {p p' : Fin a} {q q' : Fin b} (hp : p = p') (hq : q = q') : ix2 p q = ix2 p' q' := by
  subst hp hq; rfl

/-- An entry of a product of blocks is the entry of the product of the whole matrices, when the block's row is the
    matrix's row and the weight columns agree. -/
theorem mm_block {n k d N : ℕ} (xb : Mat n k) (wb : Mat k d) (X : Mat N k) (W : Mat k d)
    (j : (⟨2, ![n, d]⟩ : Shape).Idx) (i : (⟨2, ![N, d]⟩ : Shape).Idx)
    (hx : ∀ q : Fin k, xb (ix2 (j 0) q) = X (ix2 (i 0) q)) (hw : ∀ q : Fin k, wb (ix2 q (j 1)) = W (ix2 q (i 1))) :
    mm xb wb j = mm X W i :=
  Finset.sum_congr rfl fun q _ => by rw [hx q, hw q]

/-- An entry of a block plus the bias row is the entry of the whole matrix plus the bias row, when the two matrix
    entries agree and so do the two bias entries of that column. -/
theorem addRow_entry {n k N : ℕ} (xb : Mat n k) (bb : Mat 1 k) (X : Mat N k) (B : Mat 1 k)
    (j : (⟨2, ![n, k]⟩ : Shape).Idx) (i : (⟨2, ![N, k]⟩ : Shape).Idx)
    (hx : xb j = X i) (hb : bb (ix2 (0 : Fin 1) (j 1)) = B (ix2 (0 : Fin 1) (i 1))) : addRow xb bb j = addRow X B i := by
  show xb j + bb (ix2 (0 : Fin 1) (j 1)) = X i + B (ix2 (0 : Fin 1) (i 1))
  rw [hx, hb]

/-- The floor at zero of equal entries. -/
theorem relu_entry {n k N : ℕ} (a : Mat n k) (A : Mat N k) (j : (⟨2, ![n, k]⟩ : Shape).Idx) (i : (⟨2, ![N, k]⟩ : Shape).Idx)
    (h : a j = A i) : relu a j = relu A i := by
  show max (a j) floor0 = max (A i) floor0
  rw [h]

end Cert.LibRowBlocks

end
-- ==== Proof.ProductRegions.lean ====
/-
  The two product regions of the kernel, each as one whole-array function of the arrays it is entered with.

  A product region walks the 100000 rows of its left operand in 20 blocks of 5000 rows; at a point it loads the block
  and the whole weight matrix, multiplies them into a zero accumulator (the operands first changed to a narrower float
  format, which changes no extended real) and stores the 5000 result rows.  Row r of the block at point t is row
  5000·t + r of the array, and an entry of a matrix product depends on one row of the left operand only, so what point t
  writes back is rows 5000·t … 5000·t + 4999 of the product of the whole arrays (`flushed`); every row lies in exactly
  the block its number divided by 5000 names (`cover`); hence the result array ends holding the whole product (`final`).
-/
import proofs.«160602_j33809982554815_1_alg».proof.Proof.Gen.KernelIdeal.Frame
import proofs.«160602_j33809982554815_1_alg».proof.Proof.LibRowStages
import proofs.«160602_j33809982554815_1_alg».proof.Proof.LibRowBlocks
import Idealize.ShloMosaic.Lib.Pipeline.Value
import Idealize.ShloMosaic.Lib.ValueIdx

set_option maxRecDepth 16384

noncomputable section

open scoped BigOperators

namespace Cert.ProductRegions

open Idealize.ShloMosaic Idealize.ShloMosaic.TcCoe Idealize.ShloMosaic.ValueIdx Idealize.SL.Sem
open Idealize.ShloMosaic.Pipeline (Dat)
open Cert.KernelIdeal Cert.KernelIdeal.Gen Cert.LibRowStages Cert.LibRowBlocks

theorem hz : (![0, 0] : Fin 2 → Nat) = fun _ => 0 := funext fun a => by fin_cases a <;> rfl

-- the buffer contents a region is entered with
variable (V : (c : Dev nD) → (b : Ref sig .tc) → Buf (Elt Ideal) ((c : Thread nD τ).loc b))

/-! ## Region 0: a block of 5000 rows times the whole [128, 128] weight matrix -/

/-- What the body stores is the product of the two loaded blocks. -/
theorem pay0 (x0 : Vec Ideal S5000x128 .f32) (x1 : Vec Ideal S128x128 .f32) : k0_pay1 x0 x1 = mm x0 x1 := by
  unfold k0_pay1
  exact matmul_eq_mm dot_S5000x128_S128x128_S5000x128_1_0_0_1_n_n rfl rfl rfl rfl rfl rfl none _ _

/-- The printed index maps over the grid: the row blocks follow the point, the weight block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the row block at point t is the array's entry 5000·t rows further down. -/
theorem rows0 (c : Dev nD) (t : Fin cfg0.N) (x : S5000x128.Idx) (i : S100000x128.Idx)
    (h0 : (i 0).val = 5000 * t.val + (x 0).val) (h1 : (i 1).val = (x 1).val) :
    (iblk0 V c 0 t : Vec Ideal S5000x128 .f32) x = (V c main_arg0 : S100000x128.Idx → EReal) i := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e0, h0]; omega
  | ⟨1, _⟩ => show win0_0.index t 1 * 128 + 1 * (x 1).val = (i 1).val; rw [e1, h1]; omega

/-- The weight block at every point is the whole weight matrix. -/
theorem weights0 (c : Dev nD) (t : Fin cfg0.N) (x : S128x128.Idx) :
    (iblk0 V c 1 t : Vec Ideal S128x128 .f32) x = (V c main_arg2 : S128x128.Idx → EReal) x := by
  obtain ⟨-, -, e2, e3, -, -⟩ := idx0 t
  unfold iblk0
  rw [View.read_apply]
  show V c main_arg2 _ = V c main_arg2 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- What point t writes back is block t of the whole product. -/
theorem flushed0 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay0]
  obtain ⟨-, -, -, -, e4, e5⟩ := idx0 t
  funext j
  rw [View.read_apply]
  have hr : ((((cfg0.win 2).blk t).view.emb j) 0).val = 5000 * t.val + (j 0).val := by
    show win0_2.index t 0 * 5000 + 1 * (j 0).val = _; rw [e4]; omega
  have hc : ((((cfg0.win 2).blk t).view.emb j) 1).val = (j 1).val := by
    show win0_2.index t 1 * 128 + 1 * (j 1).val = _; rw [e5]; omega
  exact mm_block (iblk0 V c 0 t) (iblk0 V c 1 t) (V c main_arg0) (V c main_arg2) j (((cfg0.win 2).blk t).view.emb j)
    (fun q => rows0 V c t (ix2 (j 0) q) (ix2 ((((cfg0.win 2).blk t).view.emb j) 0) q) hr rfl)
    (fun q => (weights0 V c t (ix2 q (j 1))).trans (congrArg (V c main_arg2 : S128x128.Idx → EReal) (ix2_congr rfl (Fin.ext hc.symm))))

/-- Every row of the result lies in the block of the point its row number divided by 5000 names. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_2 t, ?_⟩
  obtain ⟨-, -, -, -, e4, e5⟩ := idx0 t
  show i ∈ ((View.whole main_v30).slice (win0_2.rect t)).set
  rw [View.set_slice_whole, Rect.mem_set_unit]
  intro a
  match a with
  | ⟨0, _⟩ =>
    show win0_2.index t 0 * 5000 ≤ (i 0).val ∧ (i 0).val < win0_2.index t 0 * 5000 + 5000
    rw [e4, ht]; omega
  | ⟨1, _⟩ =>
    show win0_2.index t 1 * 128 ≤ (i 1).val ∧ (i 1).val < win0_2.index t 1 * 128 + 128
    rw [e5]; omega

/-- The region's result array after its last point: the whole product. -/
theorem final0 (c : Dev nD) : (dat0 V c).arrAt 2 cfg0.N = mm (V c main_arg0) (V c main_arg2) :=
  (dat0 V c).arrAt_eq_of_cover 2 (mm (V c main_arg0) (V c main_arg2)) (fun t _ => flushed0 V c t) (cover0)

/-! ## Region 2: a block of 5000 rows times the whole [128, 64] weight matrix -/

/-- What the body stores is the product of the two loaded blocks. -/
theorem pay2 (x0 : Vec Ideal S5000x128 .f32) (x1 : Vec Ideal S128x64 .f32) : k2_pay1 x0 x1 = mm x0 x1 := by
  unfold k2_pay1
  simp only [shapeCast_self]
  exact matmul_eq_mm dot_S5000x128_S128x64_S5000x64_1_0_0_1_n_n rfl rfl rfl rfl rfl rfl none _ _

/-- The printed index maps over the grid: the row blocks follow the point, the weight block stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of the row block at point t is the array's entry 5000·t rows further down. -/
theorem rows2 (c : Dev nD) (t : Fin cfg2.N) (x : S5000x128.Idx) (i : S100000x128.Idx)
    (h0 : (i 0).val = 5000 * t.val + (x 0).val) (h1 : (i 1).val = (x 1).val) :
    (iblk2 V c 0 t : Vec Ideal S5000x128 .f32) x = (V c main_v45 : S100000x128.Idx → EReal) i := by
  obtain ⟨e0, e1, -, -, -, -⟩ := idx2 t
  unfold iblk2
  rw [View.read_apply]
  show V c main_v45 _ = V c main_v45 _
  congr 1
  funext a
  apply Fin.ext
  match a with
  | ⟨0, _⟩ => show win2_0.index t 0 * 5000 + 1 * (x 0).val = (i 0).val; rw [e0, h0]; omega
  | ⟨1, _⟩ => show win2_0.index t 1 * 128 + 1 * (x 1).val = (i 1).val; rw [e1, h1]; omega

/-- The weight block at every point is the whole weight matrix. -/
theorem weights2 (c : Dev nD) (t : Fin cfg2.N) (x : S128x64.Idx) :
    (iblk2 V c 1 t : Vec Ideal S128x64 .f32) x = (V c main_arg4 : S128x64.Idx → EReal) x := by
  obtain ⟨-, -, e2, e3, -, -⟩ := idx2 t
  unfold iblk2
  rw [View.read_apply]
  show V c main_arg4 _ = V c main_arg4 _
  congr 1
  funext a
  apply Fin.ext
  match a with
  | ⟨0, _⟩ => show win2_1.index t 0 * 128 + 1 * (x 0).val = (x 0).val; rw [e2]; omega
  | ⟨1, _⟩ => show win2_1.index t 1 * 64 + 1 * (x 1).val = (x 1).val; rw [e3]; omega

/-- What point t writes back is block t of the whole product. -/
theorem flushed2 (c : Dev nD) (t : Fin cfg2.N) :
    (dat2 V c).flushed 2 t = ((cfg2.win 2).blk t).view.read (Elt Ideal) (mm (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  rw [pay2]
  obtain ⟨-, -, -, -, e4, e5⟩ := idx2 t
  funext j
  rw [View.read_apply]
  have hr : ((((cfg2.win 2).blk t).view.emb j) 0).val = 5000 * t.val + (j 0).val := by
    show win2_2.index t 0 * 5000 + 1 * (j 0).val = _; rw [e4]; omega
  have hc : ((((cfg2.win 2).blk t).view.emb j) 1).val = (j 1).val := by
    show win2_2.index t 1 * 64 + 1 * (j 1).val = _; rw [e5]; omega
  exact mm_block (iblk2 V c 0 t) (iblk2 V c 1 t) (V c main_v45) (V c main_arg4) j (((cfg2.win 2).blk t).view.emb j)
    (fun q => rows2 V c t (ix2 (j 0) q) (ix2 ((((cfg2.win 2).blk t).view.emb j) 0) q) hr rfl)
    (fun q => (weights2 V c t (ix2 q (j 1))).trans (congrArg (V c main_arg4 : S128x64.Idx → EReal) (ix2_congr rfl (Fin.ext hc.symm))))

/-- Every row of the result lies in the block of the point its row number divided by 5000 names. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_2 t, ?_⟩
  obtain ⟨-, -, -, -, e4, e5⟩ := idx2 t
  show i ∈ ((View.whole main_v46).slice (win2_2.rect t)).set
  rw [View.set_slice_whole, Rect.mem_set_unit]
  intro a
  match a with
  | ⟨0, _⟩ =>
    show win2_2.index t 0 * 5000 ≤ (i 0).val ∧ (i 0).val < win2_2.index t 0 * 5000 + 5000
    rw [e4, ht]; omega
  | ⟨1, _⟩ =>
    show win2_2.index t 1 * 64 ≤ (i 1).val ∧ (i 1).val < win2_2.index t 1 * 64 + 64
    rw [e5]; omega

/-- The region's result array after its last point: the whole product. -/
theorem final2 (c : Dev nD) : (dat2 V c).arrAt 2 cfg2.N = mm (V c main_v45) (V c main_arg4) :=
  (dat2 V c).arrAt_eq_of_cover 2 (mm (V c main_v45) (V c main_arg4)) (fun t _ => flushed2 V c t) (cover2)

end Cert.ProductRegions

end
-- ==== Proof.BiasRegions.lean ====
/-
  The two bias regions of the kernel, each as one whole-array function of the arrays it is entered with.

  A bias region walks the 100000 rows of the aggregated matrix in 20 blocks of 5000 rows; at a point it loads the block
  and the one-row bias matrix, spreads the row over the block's rows, adds, in the first layer floors the sum at zero,
  and stores the 5000 result rows.  Each entry of the result depends on the same entry of the matrix and on one entry of
  the bias row, and row r of the block at point t is row 5000·t + r of the array: what point t writes back is rows
  5000·t … 5000·t + 4999 of the stage applied to the whole arrays (`flushed`), the blocks cover the array (`cover`), and
  the result array ends holding the stage of the whole arrays (`final`).
-/
import proofs.«160602_j33809982554815_1_alg».proof.Proof.Gen.KernelIdeal.Frame
import proofs.«160602_j33809982554815_1_alg».proof.Proof.LibRowStages
import proofs.«160602_j33809982554815_1_alg».proof.Proof.LibRowBlocks
import Idealize.ShloMosaic.Lib.Pipeline.Value
import Idealize.ShloMosaic.Lib.ValueIdx

set_option maxRecDepth 16384

noncomputable section

namespace Cert.BiasRegions

open Idealize.ShloMosaic Idealize.ShloMosaic.TcCoe Idealize.ShloMosaic.ValueIdx Idealize.SL.Sem
open Idealize.ShloMosaic.Pipeline (Dat)
open Cert.KernelIdeal Cert.KernelIdeal.Gen Cert.LibRowStages Cert.LibRowBlocks

theorem hz : (![0, 0] : Fin 2 → Nat) = fun _ => 0 := funext fun a => by fin_cases a <;> rfl

-- the buffer contents a region is entered with
variable (V : (c : Dev nD) → (b : Ref sig .tc) → Buf (Elt Ideal) ((c : Thread nD τ).loc b))

/-! ## Region 1: the bias row added to a block of 5000 rows, floored at zero -/

/-- What the body stores: the bias row added to every row of the loaded block, then the floor at zero. -/
theorem pay1 (x0 : Vec Ideal S5000x128 .f32) (x1 : Vec Ideal S1x128 .f32) : k1_pay1 x0 x1 = relu (addRow x0 x1) := by
  unfold k1_pay1
  simp only [shapeCast_self]
  rw [addf_spread_eq_addRow broadcasts_S1x128_S5000x128 x0 x1]
  exact maximumf_zero_eq_relu _

/-- The printed index maps over the grid: the row blocks follow the point, the bias row stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the row block at point t is the array's entry 5000·t rows further down. -/
theorem rows1 (c : Dev nD) (t : Fin cfg1.N) (x : S5000x128.Idx) (i : S100000x128.Idx)
    (h0 : (i 0).val = 5000 * t.val + (x 0).val) (h1 : (i 1).val = (x 1).val) :
    (iblk1 V c 0 t : Vec Ideal S5000x128 .f32) x = (V c main_v43 : S100000x128.Idx → EReal) i := by
  obtain ⟨e0, e1, -, -, -, -⟩ := idx1 t
  unfold iblk1
  rw [View.read_apply]
  show V c main_v43 _ = V c main_v43 _
  congr 1
  funext a
  apply Fin.ext
  match a with
  | ⟨0, _⟩ => show win1_0.index t 0 * 5000 + 1 * (x 0).val = (i 0).val; rw [e0, h0]; omega
  | ⟨1, _⟩ => show win1_0.index t 1 * 128 + 1 * (x 1).val = (i 1).val; rw [e1, h1]; omega

/-- The bias block at every point is the whole bias row. -/
theorem bias1 (c : Dev nD) (t : Fin cfg1.N) (x : S1x128.Idx) :
    (iblk1 V c 1 t : Vec Ideal S1x128 .f32) x = (V c main_v44 : S1x128.Idx → EReal) x := by
  obtain ⟨-, -, e2, e3, -, -⟩ := idx1 t
  unfold iblk1
  rw [View.read_apply]
  show V c main_v44 _ = V c main_v44 _
  congr 1
  funext a
  apply Fin.ext
  match a with
  | ⟨0, _⟩ => show win1_1.index t 0 * 1 + 1 * (x 0).val = (x 0).val; rw [e2]; omega
  | ⟨1, _⟩ => show win1_1.index t 1 * 128 + 1 * (x 1).val = (x 1).val; rw [e3]; omega

/-- What point t writes back is block t of the stage applied to the whole arrays. -/
theorem flushed1 (c : Dev nD) (t : Fin cfg1.N) :
    (dat1 V c).flushed 2 t = ((cfg1.win 2).blk t).view.read (Elt Ideal) (relu (addRow (V c main_v43) (V c main_v44))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  rw [pay1]
  obtain ⟨-, -, -, -, e4, e5⟩ := idx1 t
  funext j
  rw [View.read_apply]
  have hr : ((((cfg1.win 2).blk t).view.emb j) 0).val = 5000 * t.val + (j 0).val := by
    show win1_2.index t 0 * 5000 + 1 * (j 0).val = _; rw [e4]; omega
  have hc : ((((cfg1.win 2).blk t).view.emb j) 1).val = (j 1).val := by
    show win1_2.index t 1 * 128 + 1 * (j 1).val = _; rw [e5]; omega
  exact relu_entry (addRow (iblk1 V c 0 t) (iblk1 V c 1 t)) (addRow (V c main_v43) (V c main_v44)) j (((cfg1.win 2).blk t).view.emb j)
    (addRow_entry (iblk1 V c 0 t) (iblk1 V c 1 t) (V c main_v43) (V c main_v44) j (((cfg1.win 2).blk t).view.emb j)
      (rows1 V c t j (((cfg1.win 2).blk t).view.emb j) hr hc)
      ((bias1 V c t (ix2 (0 : Fin 1) (j 1))).trans (congrArg (V c main_v44 : S1x128.Idx → EReal) (ix2_congr rfl (Fin.ext hc.symm)))))

/-- Every row of the result lies in the block of the point its row number divided by 5000 names. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_2 t, ?_⟩
  obtain ⟨-, -, -, -, e4, e5⟩ := idx1 t
  show i ∈ ((View.whole main_v45).slice (win1_2.rect t)).set
  rw [View.set_slice_whole, Rect.mem_set_unit]
  intro a
  match a with
  | ⟨0, _⟩ =>
    show win1_2.index t 0 * 5000 ≤ (i 0).val ∧ (i 0).val < win1_2.index t 0 * 5000 + 5000
    rw [e4, ht]; omega
  | ⟨1, _⟩ =>
    show win1_2.index t 1 * 128 ≤ (i 1).val ∧ (i 1).val < win1_2.index t 1 * 128 + 128
    rw [e5]; omega

/-- The region's result array after its last point: the stage applied to the whole arrays. -/
theorem final1 (c : Dev nD) : (dat1 V c).arrAt 2 cfg1.N = relu (addRow (V c main_v43) (V c main_v44)) :=
  (dat1 V c).arrAt_eq_of_cover 2 (relu (addRow (V c main_v43) (V c main_v44))) (fun t _ => flushed1 V c t) (cover1)

/-! ## Region 3: the bias row added to a block of 5000 rows -/

/-- What the body stores: the bias row added to every row of the loaded block. -/
theorem pay3 (x0 : Vec Ideal S5000x64 .f32) (x1 : Vec Ideal S1x64 .f32) : k3_pay1 x0 x1 = addRow x0 x1 := by
  unfold k3_pay1
  simp only [shapeCast_self]
  rw [addf_spread_eq_addRow broadcasts_S1x64_S5000x64 x0 x1]

/-- The printed index maps over the grid: the row blocks follow the point, the bias row stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An entry of the row block at point t is the array's entry 5000·t rows further down. -/
theorem rows3 (c : Dev nD) (t : Fin cfg3.N) (x : S5000x64.Idx) (i : S100000x64.Idx)
    (h0 : (i 0).val = 5000 * t.val + (x 0).val) (h1 : (i 1).val = (x 1).val) :
    (iblk3 V c 0 t : Vec Ideal S5000x64 .f32) x = (V c main_v59 : S100000x64.Idx → EReal) i := by
  obtain ⟨e0, e1, -, -, -, -⟩ := idx3 t
  unfold iblk3
  rw [View.read_apply]
  show V c main_v59 _ = V c main_v59 _
  congr 1
  funext a
  apply Fin.ext
  match a with
  | ⟨0, _⟩ => show win3_0.index t 0 * 5000 + 1 * (x 0).val = (i 0).val; rw [e0, h0]; omega
  | ⟨1, _⟩ => show win3_0.index t 1 * 64 + 1 * (x 1).val = (i 1).val; rw [e1, h1]; omega

/-- The bias block at every point is the whole bias row. -/
theorem bias3 (c : Dev nD) (t : Fin cfg3.N) (x : S1x64.Idx) :
    (iblk3 V c 1 t : Vec Ideal S1x64 .f32) x = (V c main_v60 : S1x64.Idx → EReal) x := by
  obtain ⟨-, -, e2, e3, -, -⟩ := idx3 t
  unfold iblk3
  rw [View.read_apply]
  show V c main_v60 _ = V c main_v60 _
  congr 1
  funext a
  apply Fin.ext
  match a with
  | ⟨0, _⟩ => show win3_1.index t 0 * 1 + 1 * (x 0).val = (x 0).val; rw [e2]; omega
  | ⟨1, _⟩ => show win3_1.index t 1 * 64 + 1 * (x 1).val = (x 1).val; rw [e3]; omega

/-- What point t writes back is block t of the stage applied to the whole arrays. -/
theorem flushed3 (c : Dev nD) (t : Fin cfg3.N) :
    (dat3 V c).flushed 2 t = ((cfg3.win 2).blk t).view.read (Elt Ideal) (addRow (V c main_v59) (V c main_v60)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  rw [pay3]
  obtain ⟨-, -, -, -, e4, e5⟩ := idx3 t
  funext j
  rw [View.read_apply]
  have hr : ((((cfg3.win 2).blk t).view.emb j) 0).val = 5000 * t.val + (j 0).val := by
    show win3_2.index t 0 * 5000 + 1 * (j 0).val = _; rw [e4]; omega
  have hc : ((((cfg3.win 2).blk t).view.emb j) 1).val = (j 1).val := by
    show win3_2.index t 1 * 64 + 1 * (j 1).val = _; rw [e5]; omega
  exact (addRow_entry (iblk3 V c 0 t) (iblk3 V c 1 t) (V c main_v59) (V c main_v60) j (((cfg3.win 2).blk t).view.emb j)
      (rows3 V c t j (((cfg3.win 2).blk t).view.emb j) hr hc)
      ((bias3 V c t (ix2 (0 : Fin 1) (j 1))).trans (congrArg (V c main_v60 : S1x64.Idx → EReal) (ix2_congr rfl (Fin.ext hc.symm)))))

/-- Every row of the result lies in the block of the point its row number divided by 5000 names. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  refine ⟨t, flush3_2 t, ?_⟩
  obtain ⟨-, -, -, -, e4, e5⟩ := idx3 t
  show i ∈ ((View.whole main_v61).slice (win3_2.rect t)).set
  rw [View.set_slice_whole, Rect.mem_set_unit]
  intro a
  match a with
  | ⟨0, _⟩ =>
    show win3_2.index t 0 * 5000 ≤ (i 0).val ∧ (i 0).val < win3_2.index t 0 * 5000 + 5000
    rw [e4, ht]; omega
  | ⟨1, _⟩ =>
    show win3_2.index t 1 * 64 ≤ (i 1).val ∧ (i 1).val < win3_2.index t 1 * 64 + 64
    rw [e5]; omega

/-- The region's result array after its last point: the stage applied to the whole arrays. -/
theorem final3 (c : Dev nD) : (dat3 V c).arrAt 2 cfg3.N = addRow (V c main_v59) (V c main_v60) :=
  (dat3 V c).arrAt_eq_of_cover 2 (addRow (V c main_v59) (V c main_v60)) (fun t _ => flushed3 V c t) (cover3)

end Cert.BiasRegions

end
-- ==== Proof.LibConcatCongr.lean ====
/-
  A TWO-PIECE CONCATENATION RESPECTS EQUALITY OF ITS PIECES, in the form of a congruence rule for the simplifier. Each
  piece of a concatenation is the second component of a pair whose first component is the piece's shape, so a
  rewriting pass does not enter it on its own; with this rule it does, and a chain of host operations that ends in a
  concatenation is read in one pass.
-/
import Idealize.ShloMosaic.PureOps.ShapeOps

namespace Cert.LibConcatCongr

open Idealize.ShloMosaic

/-- Two pieces joined along an axis: equal pieces give equal joins. (Not tagged here: a module that wants the
    simplifier to use it says so locally.) -/
theorem concatenate_pair_congr {α : Type} {t s₁ s₂ : Shape} (a : Fin t.rank) (x₁ x₁' : s₁.Idx → α)
    (x₂ x₂' : s₂.Idx → α) (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

end Cert.LibConcatCongr
-- ==== Proof.LibTypedRefs.lean ====
/-
  A typed tensor reference moves a value between the value's own type and the type its buffer is declared with; the two
  moves at one buffer undo each other, whatever the proofs the two typed references carry.
-/
import Idealize.ShloMosaic.Lib.StableHlo

noncomputable section

namespace Cert.LibTypedRefs

open Idealize.ShloMosaic Idealize.ShloMosaic.StableHlo

/-- Reading back through a typed reference what was written through a typed reference to the same buffer gives the value
    written. -/
theorem ofBuf_toBuf {sig : RefSig} {Val : EltTy → Type} {T : BufTy} (r : Ref sig .tc) (h h' : r.ty = T)
    (a a' : r.space ≠ .host) (b b' : r.isScoped = false) (u : T.Contents Val) :
    (TRef.of r h a b).ofBuf ((TRef.of r h' a' b').toBuf u) = u := by
  subst h; rfl

end Cert.LibTypedRefs

end
-- ==== Proof.Chain.lean ====
/-
  The fold through the kernel program's segments, read at the result buffer.

  The three leading stretches of host operations compute, from the edge list, the source and target ends of the edges and
  the edges' weights; no later operation and no region writes those three buffers or an argument, so they are found
  unchanged at every later boundary (`src`, `dst`, `nrm`, `arg` lemmas below).  Region 0 leaves the product of the
  node features with the first weight matrix; the next stretch aggregates it along the edges and reshapes the first bias
  vector to a row; region 1 adds the row and floors at zero; region 2 multiplies by the second weight matrix; the next
  stretch aggregates again and reshapes the second bias vector; region 3 adds that row.  Composed, the result buffer at
  the last boundary holds `gcn` of the six arguments.
-/
import proofs.«160602_j33809982554815_1_alg».proof.Proof.Gen.KernelIdeal.Frame
import proofs.«160602_j33809982554815_1_alg».proof.Proof.Stages
import proofs.«160602_j33809982554815_1_alg».proof.Proof.ProductRegions
import proofs.«160602_j33809982554815_1_alg».proof.Proof.BiasRegions
import proofs.«160602_j33809982554815_1_alg».proof.Proof.LibConcatCongr
import proofs.«160602_j33809982554815_1_alg».proof.Proof.LibTypedRefs
import Idealize.ShloMosaic.Lib.StableHlo.Run

set_option maxRecDepth 16384

noncomputable section

namespace Cert.Chain

open Idealize.ShloMosaic Idealize.ShloMosaic.TcCoe Idealize.SL.Sem Idealize.ShloMosaic.StableHlo
open Cert.KernelIdeal Cert.KernelIdeal.Gen Cert.Stages Cert.LibRowStages

variable (m : (ℓ : Loc nD τ sig) → Buf (Elt Ideal) ℓ) (ρ : Dev nD → PrngReg) (c : Dev nD)

attribute [local congr] Cert.LibConcatCongr.concatenate_pair_congr

/-! ## The typed references of the inlined `where`: moving a value to its buffer's declared type and back changes nothing -/

theorem cast_dinv (h : main_v14.ty = ⟨S100000, .f32⟩) (a : main_v14.space ≠ .host) (b : main_v14.isScoped = false) (u : FVec Ideal S100000 .f32) :
    ((TRef.of main_v14 h a b).toBuf (Val := Elt Ideal) u : FVec Ideal S100000 .f32) = u := rfl

theorem cast_pos (h : main_v12.ty = ⟨S100000, .i1⟩) (a : main_v12.space ≠ .host) (b : main_v12.isScoped = false) (u : IVec S100000 1) :
    ((TRef.of main_v12 h a b).ofBuf (Val := Elt Ideal) u : IVec S100000 1) = u := rfl

theorem cast_rsqrt (h : main_v13.ty = ⟨S100000, .f32⟩) (a : main_v13.space ≠ .host) (b : main_v13.isScoped = false) (u : FVec Ideal S100000 .f32) :
    ((TRef.of main_v13 h a b).ofBuf (Val := Elt Ideal) u : FVec Ideal S100000 .f32) = u := rfl

theorem cast_zero (h : main_cst_2.ty = ⟨S_, .f32⟩) (a : main_cst_2.space ≠ .host) (b : main_cst_2.isScoped = false) (u : FVec Ideal S_ .f32) :
    ((TRef.of main_cst_2 h a b).ofBuf (Val := Elt Ideal) u : FVec Ideal S_ .f32) = u := rfl

/-! ## At region 0's entry: the edge quantities computed, the arguments as launched -/

set_option maxHeartbeats 4000000 in
theorem src3 : (W3 m ρ c (Proc.devRef .tc main_v3) : IVec S1700000 32) = srcOf (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 4000000 in
theorem dst3 : (W3 m ρ c (Proc.devRef .tc main_v6) : IVec S1700000 32) = dstOf (m ((c : Thread nD τ).loc main_arg1)) := by
  show StableHlo.after hostOps0_2 (StableHlo.after hostOps0_1 (StableHlo.after hostOps0 (W0 m ρ c))) (Proc.devRef .tc main_v6) = _
  after_results_simp
  rfl

set_option maxHeartbeats 16000000 in
theorem nrm3 : (W3 m ρ c (Proc.devRef .tc main_v29) : FVec Ideal S1700000 .f32) = normOf (m ((c : Thread nD τ).loc main_arg1)) := by
  show StableHlo.after hostOps0_2 (StableHlo.after hostOps0_1 (StableHlo.after hostOps0 (W0 m ρ c))) (Proc.devRef .tc main_v29) = _
  after_results_simp
  simp only [Cert.LibTypedRefs.ofBuf_toBuf, cast_dinv, cast_pos, cast_rsqrt, cast_zero]
  rfl

theorem arg0_3 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem arg2_3 : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

theorem arg3_3 : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem arg4_3 : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem arg5_3 : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-! ## The edge quantities and the later arguments, carried across each boundary -/
theorem src43 : W4 m ρ c (Proc.devRef .tc main_v3) = W3 m ρ c (Proc.devRef .tc main_v3) := W4_of_ne m ρ c main_v3 (by decide)
theorem src54 : W5 m ρ c (Proc.devRef .tc main_v3) = W4 m ρ c (Proc.devRef .tc main_v3) :=
  StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem src65 : W6 m ρ c (Proc.devRef .tc main_v3) = W5 m ρ c (Proc.devRef .tc main_v3) := W6_of_ne m ρ c main_v3 (by decide)
theorem src76 : W7 m ρ c (Proc.devRef .tc main_v3) = W6 m ρ c (Proc.devRef .tc main_v3) := W7_of_ne m ρ c main_v3 (by decide)
theorem dst43 : W4 m ρ c (Proc.devRef .tc main_v6) = W3 m ρ c (Proc.devRef .tc main_v6) := W4_of_ne m ρ c main_v6 (by decide)
theorem dst54 : W5 m ρ c (Proc.devRef .tc main_v6) = W4 m ρ c (Proc.devRef .tc main_v6) :=
  StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem dst65 : W6 m ρ c (Proc.devRef .tc main_v6) = W5 m ρ c (Proc.devRef .tc main_v6) := W6_of_ne m ρ c main_v6 (by decide)
theorem dst76 : W7 m ρ c (Proc.devRef .tc main_v6) = W6 m ρ c (Proc.devRef .tc main_v6) := W7_of_ne m ρ c main_v6 (by decide)
theorem nrm43 : W4 m ρ c (Proc.devRef .tc main_v29) = W3 m ρ c (Proc.devRef .tc main_v29) := W4_of_ne m ρ c main_v29 (by decide)
theorem nrm54 : W5 m ρ c (Proc.devRef .tc main_v29) = W4 m ρ c (Proc.devRef .tc main_v29) :=
  StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem nrm65 : W6 m ρ c (Proc.devRef .tc main_v29) = W5 m ρ c (Proc.devRef .tc main_v29) := W6_of_ne m ρ c main_v29 (by decide)
theorem nrm76 : W7 m ρ c (Proc.devRef .tc main_v29) = W6 m ρ c (Proc.devRef .tc main_v29) := W7_of_ne m ρ c main_v29 (by decide)
theorem arg3_43 : W4 m ρ c (Proc.devRef .tc main_arg3) = W3 m ρ c (Proc.devRef .tc main_arg3) := W4_of_ne m ρ c main_arg3 (by decide)
theorem arg4_43 : W4 m ρ c (Proc.devRef .tc main_arg4) = W3 m ρ c (Proc.devRef .tc main_arg4) := W4_of_ne m ρ c main_arg4 (by decide)
theorem arg4_54 : W5 m ρ c (Proc.devRef .tc main_arg4) = W4 m ρ c (Proc.devRef .tc main_arg4) :=
  StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg4_65 : W6 m ρ c (Proc.devRef .tc main_arg4) = W5 m ρ c (Proc.devRef .tc main_arg4) := W6_of_ne m ρ c main_arg4 (by decide)
theorem arg5_43 : W4 m ρ c (Proc.devRef .tc main_arg5) = W3 m ρ c (Proc.devRef .tc main_arg5) := W4_of_ne m ρ c main_arg5 (by decide)
theorem arg5_54 : W5 m ρ c (Proc.devRef .tc main_arg5) = W4 m ρ c (Proc.devRef .tc main_arg5) :=
  StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg5_65 : W6 m ρ c (Proc.devRef .tc main_arg5) = W5 m ρ c (Proc.devRef .tc main_arg5) := W6_of_ne m ρ c main_arg5 (by decide)
theorem arg5_76 : W7 m ρ c (Proc.devRef .tc main_arg5) = W6 m ρ c (Proc.devRef .tc main_arg5) := W7_of_ne m ρ c main_arg5 (by decide)

theorem src4 : (W4 m ρ c (Proc.devRef .tc main_v3) : IVec S1700000 32) = srcOf (m ((c : Thread nD τ).loc main_arg1)) := (src43 m ρ c).trans (src3 m ρ c)
theorem dst4 : (W4 m ρ c (Proc.devRef .tc main_v6) : IVec S1700000 32) = dstOf (m ((c : Thread nD τ).loc main_arg1)) := (dst43 m ρ c).trans (dst3 m ρ c)
theorem nrm4 : (W4 m ρ c (Proc.devRef .tc main_v29) : FVec Ideal S1700000 .f32) = normOf (m ((c : Thread nD τ).loc main_arg1)) := (nrm43 m ρ c).trans (nrm3 m ρ c)
theorem src7 : (W7 m ρ c (Proc.devRef .tc main_v3) : IVec S1700000 32) = srcOf (m ((c : Thread nD τ).loc main_arg1)) :=
  (src76 m ρ c).trans ((src65 m ρ c).trans ((src54 m ρ c).trans (src4 m ρ c)))
theorem dst7 : (W7 m ρ c (Proc.devRef .tc main_v6) : IVec S1700000 32) = dstOf (m ((c : Thread nD τ).loc main_arg1)) :=
  (dst76 m ρ c).trans ((dst65 m ρ c).trans ((dst54 m ρ c).trans (dst4 m ρ c)))
theorem nrm7 : (W7 m ρ c (Proc.devRef .tc main_v29) : FVec Ideal S1700000 .f32) = normOf (m ((c : Thread nD τ).loc main_arg1)) :=
  (nrm76 m ρ c).trans ((nrm65 m ρ c).trans ((nrm54 m ρ c).trans (nrm4 m ρ c)))
theorem arg3_4 : W4 m ρ c (Proc.devRef .tc main_arg3) = m ((c : Thread nD τ).loc main_arg3) := (arg3_43 m ρ c).trans (arg3_3 m ρ c)
theorem arg4_6 : W6 m ρ c (Proc.devRef .tc main_arg4) = m ((c : Thread nD τ).loc main_arg4) :=
  (arg4_65 m ρ c).trans ((arg4_54 m ρ c).trans ((arg4_43 m ρ c).trans (arg4_3 m ρ c)))
theorem arg5_7 : W7 m ρ c (Proc.devRef .tc main_arg5) = m ((c : Thread nD τ).loc main_arg5) :=
  (arg5_76 m ρ c).trans ((arg5_65 m ρ c).trans ((arg5_54 m ρ c).trans ((arg5_43 m ρ c).trans (arg5_3 m ρ c))))

/-! ## The layers -/

/-- Region 0 leaves the node features times the first weight matrix. -/
theorem lin1 : (W4 m ρ c (Proc.devRef .tc main_v30) : FVec Ideal S100000x128 .f32) = mm (m ((c : Thread nD τ).loc main_arg0)) (m ((c : Thread nD τ).loc main_arg2)) :=
  (W4_arr m ρ c 2).trans ((Cert.ProductRegions.final0 (V3 m ρ) c).trans (congrArg₂ mm (arg0_3 m ρ c) (arg2_3 m ρ c)))

set_option maxHeartbeats 4000000 in
/-- The stretch after region 0 aggregates that product along the edges. -/
theorem agg1 : (StableHlo.after hostOps1 (W4 m ρ c) (Proc.devRef .tc main_v43) : FVec Ideal S100000x128 .f32)
    = aggr128 (mm (m ((c : Thread nD τ).loc main_arg0)) (m ((c : Thread nD τ).loc main_arg2))) (m ((c : Thread nD τ).loc main_arg1)) := by
  after_results_simp
  rw [lin1 m ρ c, src4 m ρ c, dst4 m ρ c, nrm4 m ρ c]
  rfl

/-- The same stretch reshapes the first bias vector to a row. -/
theorem row1 : (StableHlo.after hostOps1 (W4 m ρ c) (Proc.devRef .tc main_v44) : FVec Ideal S1x128 .f32)
    = shapeCast S1x128 (m ((c : Thread nD τ).loc main_arg3)) shapeCasts_S128_S1x128 := by
  after_results_simp
  rw [arg3_4 m ρ c]
  rfl

/-- Region 1 adds the bias row and floors at zero. -/
theorem act1 : (W6 m ρ c (Proc.devRef .tc main_v45) : FVec Ideal S100000x128 .f32)
    = relu (addRow (aggr128 (mm (m ((c : Thread nD τ).loc main_arg0)) (m ((c : Thread nD τ).loc main_arg2))) (m ((c : Thread nD τ).loc main_arg1))) (shapeCast S1x128 (m ((c : Thread nD τ).loc main_arg3)) shapeCasts_S128_S1x128)) :=
  (W6_arr m ρ c 2).trans ((Cert.BiasRegions.final1 (V5 m ρ) c).trans (congrArg relu (congrArg₂ addRow (agg1 m ρ c) (row1 m ρ c))))

/-- Region 2 multiplies by the second weight matrix. -/
theorem lin2 : (W7 m ρ c (Proc.devRef .tc main_v46) : FVec Ideal S100000x64 .f32)
    = mm (relu (addRow (aggr128 (mm (m ((c : Thread nD τ).loc main_arg0)) (m ((c : Thread nD τ).loc main_arg2))) (m ((c : Thread nD τ).loc main_arg1))) (shapeCast S1x128 (m ((c : Thread nD τ).loc main_arg3)) shapeCasts_S128_S1x128))) (m ((c : Thread nD τ).loc main_arg4)) :=
  (W7_arr m ρ c 2).trans ((Cert.ProductRegions.final2 (V6 m ρ) c).trans (congrArg₂ mm (act1 m ρ c) (arg4_6 m ρ c)))

set_option maxHeartbeats 4000000 in
/-- The stretch after region 2 aggregates along the edges again. -/
theorem agg2 : (StableHlo.after hostOps3 (W7 m ρ c) (Proc.devRef .tc main_v59) : FVec Ideal S100000x64 .f32)
    = aggr64 (mm (relu (addRow (aggr128 (mm (m ((c : Thread nD τ).loc main_arg0)) (m ((c : Thread nD τ).loc main_arg2))) (m ((c : Thread nD τ).loc main_arg1))) (shapeCast S1x128 (m ((c : Thread nD τ).loc main_arg3)) shapeCasts_S128_S1x128))) (m ((c : Thread nD τ).loc main_arg4))) (m ((c : Thread nD τ).loc main_arg1)) := by
  after_results_simp
  rw [lin2 m ρ c, src7 m ρ c, dst7 m ρ c, nrm7 m ρ c]
  rfl

/-- The same stretch reshapes the second bias vector to a row. -/
theorem row2 : (StableHlo.after hostOps3 (W7 m ρ c) (Proc.devRef .tc main_v60) : FVec Ideal S1x64 .f32)
    = shapeCast S1x64 (m ((c : Thread nD τ).loc main_arg5)) shapeCasts_S64_S1x64 := by
  after_results_simp
  rw [arg5_7 m ρ c]
  rfl

/-- Region 3 adds the second bias row: the result buffer at the last boundary holds the two layers of the arguments. -/
theorem result : (W9 m ρ c (Proc.devRef .tc main_v61) : FVec Ideal S100000x64 .f32)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((Cert.BiasRegions.final3 (V8 m ρ) c).trans (congrArg₂ addRow (agg2 m ρ c) (row2 m ρ c)))

end Cert.Chain

end
-- ==== Proof.RefValue.lean ====
/-
  The reference program's result is the same two layers of the arguments.

  The reference's run ends with its result buffer at one composed term of the argument arrays.  Its edge quantities and
  its two aggregations are, operation by operation, the stages `srcOf` … `aggr64`; between them it spells the products
  as host contractions, the bias rows as a vector placed as a row and spread over the rows, and the floor as a maximum
  against a spread scalar zero.  Those spellings are the row-wise stages `mm`, `addRow`, `relu` on the extended reals,
  so the term is `gcn` of the six arguments.
-/
import proofs.«160602_j33809982554815_1_alg».proof.Proof.RefRun
import proofs.«160602_j33809982554815_1_alg».proof.Proof.Stages

set_option maxRecDepth 16384

noncomputable section

namespace Cert.RefValue

open Idealize.ShloMosaic Idealize.ShloMosaic.TcCoe Idealize.SL.Sem
open Cert.ReferenceIdeal Cert.ReferenceIdeal.Facts₀ Cert.ReferenceIdeal.Facts Cert.LibRowStages Cert.Stages

variable (m : (ℓ : Loc nD τ sig) → Buf (Elt Ideal) ℓ) (c : Dev nD)

set_option maxHeartbeats 4000000 in
theorem result :
    (Cert.ReferenceIdeal.ValueP.res_main_v64 (F := Ideal) m c : FVec Ideal S100000x64 .f32)
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show addf (aggr64 (Host.dotGeneral dot_S100000x128_S128x64_S100000x64_1_0_0_1_n_n none
        (maximumf (addf (aggr128 (Host.dotGeneral dot_S100000x128_S128x128_S100000x128_1_0_0_1_n_n none (m ((c.tc : Thread nD τ).loc main_arg0)) (m ((c.tc : Thread nD τ).loc main_arg2))) (m ((c.tc : Thread nD τ).loc main_arg1)))
            (broadcastInDim S100000x128 ![0, 1] bcast_S1x128_S100000x128_0_1 (broadcastInDim S1x128 ![1] bcast_S128_S1x128_1 (m ((c.tc : Thread nD τ).loc main_arg3)))))
          (broadcastInDim S100000x128 ![] bcast_S_S100000x128 (constant S_ .f32 0x00000000#32)))
        (m ((c.tc : Thread nD τ).loc main_arg4))) (m ((c.tc : Thread nD τ).loc main_arg1)))
      (broadcastInDim S100000x64 ![0, 1] bcast_S1x64_S100000x64_0_1 (broadcastInDim S1x64 ![1] bcast_S64_S1x64_1 (m ((c.tc : Thread nD τ).loc main_arg5)))) = _
  rw [dotGeneral_eq_mm dot_S100000x128_S128x128_S100000x128_1_0_0_1_n_n rfl rfl rfl rfl rfl rfl none,
    addf_hostBias_eq_addRow bcast_S128_S1x128_1 bcast_S1x128_S100000x128_0_1 Cert.KernelIdeal.Facts₀.shapeCasts_S128_S1x128,
    maximumf_hostZero_eq_relu bcast_S_S100000x128,
    dotGeneral_eq_mm dot_S100000x128_S128x64_S100000x64_1_0_0_1_n_n rfl rfl rfl rfl rfl rfl none,
    addf_hostBias_eq_addRow bcast_S64_S1x64_1 bcast_S1x64_S100000x64_0_1 Cert.KernelIdeal.Facts₀.shapeCasts_S64_S1x64]
  rfl

end Cert.RefValue

end
-- ==== Proof.lean ====
/-
  A two-layer graph convolution on 100000 nodes and 1600000 edges: the kernel program against its reference, on the
  extended reals.

  Both programs compute, from node features x, an edge list e, weight matrices W1, W2 and bias vectors b1, b2,

      out = A·(relu(A·(x W1) + b1) W2) + b2,

  where A aggregates a node matrix along the edges with one self-loop per node: row n of A·h is the sum, over the edges
  into n, of the source node's row of h scaled by the edge's weight dinv(source)·dinv(target), dinv the inverse square
  root of the in-degree.  The degree, the weights and the two aggregations are the same host operations in both programs.
  The programs differ in how they spell the products, the bias additions and the floor at zero: the reference as host
  operations on whole arrays, the kernel program as four regions that walk the 100000 rows in 20 blocks of 5000.  Each
  of those stages works one row at a time, so a region's blocks are the rows of the stage of the whole arrays and, the
  blocks covering the array, each region leaves the whole-array stage (Proof/ProductRegions.lean,
  Proof/BiasRegions.lean).  Read through the program's segments, the kernel program's result is `Stages.gcn` of the
  arguments (Proof/Chain.lean), and so is the reference's (Proof/RefValue.lean).  No step distributes, cancels or moves
  a factor across a sum, so nothing here needs the inputs to be finite: the precondition is not opened.

  The frames: the two kernel programs' are the generated frame certificates; the reference's is its run with the result
  dropped.  The idealization rewrote no operation, so `preserves` has nothing to state.
-/
import proofs.«160602_j33809982554815_1_alg».proof.Defs
import proofs.«160602_j33809982554815_1_alg».proof.Proof.Gen.Kernel
import proofs.«160602_j33809982554815_1_alg».proof.Proof.Gen.Kernel.Skeleton
import proofs.«160602_j33809982554815_1_alg».proof.Proof.Gen.Kernel.Launch
import proofs.«160602_j33809982554815_1_alg».proof.Proof.Gen.Kernel.Points
import proofs.«160602_j33809982554815_1_alg».proof.Proof.Gen.Kernel.Frame
import proofs.«160602_j33809982554815_1_alg».proof.Proof.Gen.KernelIdeal
import proofs.«160602_j33809982554815_1_alg».proof.Proof.Gen.KernelIdeal.Skeleton
import proofs.«160602_j33809982554815_1_alg».proof.Proof.Gen.KernelIdeal.Launch
import proofs.«160602_j33809982554815_1_alg».proof.Proof.Gen.KernelIdeal.Points
import proofs.«160602_j33809982554815_1_alg».proof.Proof.Gen.KernelIdeal.Frame
import proofs.«160602_j33809982554815_1_alg».proof.Proof.Gen.ReferenceIdeal
import proofs.«160602_j33809982554815_1_alg».proof.Proof.Gen.Pre_finite_inputs
import proofs.«160602_j33809982554815_1_alg».proof.Proof.KernelRun
import proofs.«160602_j33809982554815_1_alg».proof.Proof.Chain
import proofs.«160602_j33809982554815_1_alg».proof.Proof.RefRun
import proofs.«160602_j33809982554815_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Run from memories that agree on the six arguments, both programs end with their result at `gcn` of the arguments. -/
theorem algebraic : Cert.algebraic_KernelIdeal_ReferenceIdeal := by
  intro m ρ m' ρ' _ hagree
  refine ⟨fun c => Cert.Stages.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.Chain.result m ρ c), (h c).2⟩)
      (Cert.KernelIdeal.RunValue.run (F := Ideal) m ρ)
  · refine (θ_run Cert.ReferenceIdeal.defs _ _).mono (fun r h c => ⟨(h c).1.trans ((Cert.RefValue.result m' c).trans ?_), (h c).2⟩)
      (Cert.ReferenceIdeal.ValueP.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
